-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  reducesTo_S1x1024_S_d0_1 : S1x1024.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Finite.lean ====
/-
  What the precondition gives: every entry of both argument arrays is a real number.

  The precondition is `all(|x1| < +inf) ∧ all(|x2| < +inf)`, one bit. When the bit is 1 both conjuncts are 1; an
  all-reduce by `and` that is 1 had a 1 at every index; and an extended real `x` with `max x (-x) < ⊤` is neither
  `⊤` (then `max x (-x) = ⊤`) nor `⊥` (then `-x = ⊤`), so it is a real.
-/
import proofs.«152017_j48395691491826_1_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

/-- The f32 word `0x7F800000` is `+inf`. -/
theorem ofBits_inf : Ideal.ofBits .f32 0x7F800000#32 = (⊤ : EReal) := by simp [Ideal.ofBits, Ideal.ieee]

/-- An extended real whose absolute value compares below `+inf` is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

instance : Subsingleton S_.Idx := ⟨fun _ _ => funext fun d => d.elim0⟩

/-- Under the precondition every entry of both arrays is a real number. -/
theorem real_of_pre (x0 x1 : FVec Ideal S8192x1024 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

end Cert.FiniteInputs

end
-- ==== Proof.Body.lean ====
/-
  The body's arithmetic at an index, on the extended reals.

  Each of the body's two accumulating stores writes, into a [1, 1024] row, the row it read plus the column sums of a
  [1024, 1024] block: at column `d` the stored value is `acc (0, d) + ∑ r, blk (r, d)`. The block's reduction along
  its row axis read at `d` is the finite sum over the 1024 rows (no order or rounding is left in it on the extended
  reals); the two shape casts only rename the index. The reset stores write the zero row.
-/
import proofs.«152017_j48395691491826_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ColSum

open Idealize.ShloMosaic Idealize.ShloMosaic.ValueIdx Cert.KernelIdeal Cert.KernelIdeal.Gen

/-- Column `d` of the reduced vector with row `k` put back is entry `(k, d)` of the block. -/
theorem lift_row (h : S1024x1024.Reduces [0] S1024) (d : Fin 1024) (k : Fin (S1024x1024.size 0)) :
    h.lift (ix1 d) k = ix2 (⟨k.val, k.isLt⟩ : Fin 1024) d := by
  funext c; apply Fin.ext; fin_cases c <;> rfl

/-- The reduction of a [1024, 1024] block along its rows, read at column `d`: the sum of that column. -/
theorem colsum_apply (v : FVec Ideal S1024x1024 .f32) (h : S1024x1024.Reduces [0] S1024) (hφ : FKind.Formats .f32)
    (hacc : (0x00000000#32 : BitVec 32) = FKind.add.neutral .f32 hφ) (d : Fin 1024) :
    multiReduction .add [0] S1024 v 0x00000000#32 h hφ hacc (ix1 d) = ∑ r : Fin 1024, v (ix2 r d) := by
  refine (Ideal.multiReduction_add_single v 0x00000000#32 h hφ hacc (ix1 d)).trans ?_
  exact Finset.sum_congr rfl (fun k _ => congrArg v (lift_row h d k))

/-- The first accumulating store at column `d`: the row read plus the block's column sum. -/
theorem pay3_apply (acc : FVec Ideal S1x1024 .f32) (blk : FVec Ideal S1024x1024 .f32) (d : Fin 1024) :
    k0_pay3 (F := Ideal) acc blk (ix2 (0 : Fin 1) d) = acc (ix2 (0 : Fin 1) d) + ∑ r : Fin 1024, blk (ix2 r d) := by
  unfold k0_pay3
  dsimp only
  refine (addf_apply _ _ _).trans ?_
  rw [shapeCast_self]
  refine congrArg (fun z => acc (ix2 (0 : Fin 1) d) + z) ?_
  refine (shapeCast_a_1a_apply _ _ (0 : Fin 1) d).trans ?_
  exact colsum_apply _ _ _ _ d

/-- The second accumulating store: the same function of its own row and block. -/
theorem pay4_apply (acc : FVec Ideal S1x1024 .f32) (blk : FVec Ideal S1024x1024 .f32) (d : Fin 1024) :
    k0_pay4 (F := Ideal) acc blk (ix2 (0 : Fin 1) d) = acc (ix2 (0 : Fin 1) d) + ∑ r : Fin 1024, blk (ix2 r d) := by
  unfold k0_pay4
  dsimp only
  refine (addf_apply _ _ _).trans ?_
  rw [shapeCast_self]
  refine congrArg (fun z => acc (ix2 (0 : Fin 1) d) + z) ?_
  refine (shapeCast_a_1a_apply _ _ (0 : Fin 1) d).trans ?_
  exact colsum_apply _ _ _ _ d

/-- The reset rows are zero. -/
theorem pay1_apply (j : S1x1024.Idx) : k0_pay1 (F := Ideal) j = 0 := by
  unfold k0_pay1
  exact Ideal.ofBits_zero_f32

theorem pay2_apply (j : S1x1024.Idx) : k0_pay2 (F := Ideal) j = 0 := by
  unfold k0_pay2
  exact Ideal.ofBits_zero_f32

end Cert.KernelIdeal.ColSum

end
-- ==== Proof.Pieces.lean ====
/-
  What one run of the body leaves in the two output rows, as values.

  At the first grid point the body stores the zero row, reads it back, and stores over it the zero row plus the column
  sums of the point's block: the row ends at the accumulating store's value of (the zero row, the block). At every
  later point only the accumulating store runs, on the row the point before left: the row ends at that store's value
  of (the previous row, the block). Each output row is covered by its last store, so reading the stores back gives that
  store's value; the loads inside it read whole buffers, hence the buffers' contents.
-/
import proofs.«152017_j48395691491826_1_alg».proof.Proof.Gen.KernelIdeal.Frame
import Idealize.ShloMosaic.Lib.Pipeline.Value
import Idealize.ShloMosaic.Lib.Tactic

noncomputable section

namespace Cert.KernelIdeal.ColSum

open Idealize.ShloMosaic Idealize.ShloMosaic.TcCoe Idealize.ShloMosaic.Tactic Idealize.SL.Sem
open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- A later point leaves, in the first output row holding `r`, the accumulating store's value of `r` and the first block. -/
theorem later_row1 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (hc : ¬cond0_0 i)
    (x0 x1 : Vec F S1024x1024 .f32) (r1 r2 : Vec F S1x1024 .f32) :
    out0_B_2 c i a1 h1 a2 h2 a3 h3 a4 h4 hc x0 x1 r1 r2 = k0_pay3 r1 x0 := by
  unfold out0_B_2
  rw [View.read_writes_eq_canon _ _ _ (cover0_B_2 c i a1 h1 a2 h2 a3 h3 a4 h4 hc x0 x1 r1 r2)]
  unfold kernelRun0_B
  dsimp only
  rw [View.canon_unit_zero origin]
  simp only [View.readAt_eq_ld, h1.read_unread, h3.read_unread, View.ld_unit_zero (S := S1x1024) origin,
    View.ld_unit_zero (S := S1024x1024) origin]

/-- A later point leaves, in the second output row holding `r`, the accumulating store's value of `r` and the second block. -/
theorem later_row2 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (hc : ¬cond0_0 i)
    (x0 x1 : Vec F S1024x1024 .f32) (r1 r2 : Vec F S1x1024 .f32) :
    out0_B_3 c i a1 h1 a2 h2 a3 h3 a4 h4 hc x0 x1 r1 r2 = k0_pay4 r2 x1 := by
  unfold out0_B_3
  rw [View.read_writes_eq_canon _ _ _ (cover0_B_3 c i a1 h1 a2 h2 a3 h3 a4 h4 hc x0 x1 r1 r2)]
  unfold kernelRun0_B
  dsimp only
  rw [View.canon_unit_zero origin]
  simp only [View.readAt_eq_ld, h2.read_unread, h4.read_unread, View.ld_unit_zero (S := S1x1024) origin,
    View.ld_unit_zero (S := S1024x1024) origin]

/-- The first point leaves, in the first output row, the accumulating store's value of the zero row and the first block. -/
theorem first_row1 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (hc : cond0_0 i)
    (x0 x1 : Vec F S1024x1024 .f32) :
    out0_A_2 c i a1 h1 a2 h2 a3 h3 a4 h4 hc x0 x1 = k0_pay3 (k0_pay1 (F := F)) x0 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1024) origin, View.readCov_unit_zero (S := S1x1024) _ origin]
  simp only [View.readAt_eq_ld, h1.read_unread, View.ld_unit_zero (S := S1x1024) origin,
    View.ld_unit_zero (S := S1024x1024) origin]

/-- The first point leaves, in the second output row, the accumulating store's value of the zero row and the second block. -/
theorem first_row2 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (hc : cond0_0 i)
    (x0 x1 : Vec F S1024x1024 .f32) :
    out0_A_3 c i a1 h1 a2 h2 a3 h3 a4 h4 hc x0 x1 = k0_pay4 (k0_pay2 (F := F)) x1 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1024) origin, View.readCov_unit_zero (S := S1x1024) _ origin]
  simp only [View.readAt_eq_ld, h2.read_unread, View.ld_unit_zero (S := S1x1024) origin,
    View.ld_unit_zero (S := S1024x1024) origin]

end Cert.KernelIdeal.ColSum

end
-- ==== Proof.Accum.lean ====
/-
  The two output rows after every grid point, and after the last: the column sums of the two arguments.

  The grid has 8 points; point `t` sees rows `1024 t … 1024 t + 1023` of each argument as a [1024, 1024] block. By
  induction on the point, after point `n` output row 1 holds at column `d` the sum over points `t ≤ n` of column `d`
  of block `t` of the first argument, and row 2 the same of the second: the first point stores `0 + ∑` of its block
  (the zero row it has just written plus the block's column sums), each later point adds its block's column sums to
  what the point before left. Addition on the extended reals is commutative and associative, so no finiteness is
  needed here. After point 7 the 8 × 1024 rows are all the 8192 rows: row `p = 1024 t + r` once each.
-/
import proofs.«152017_j48395691491826_1_alg».proof.Proof.Body
import proofs.«152017_j48395691491826_1_alg».proof.Proof.Pieces

noncomputable section

namespace Cert.KernelIdeal.ColSum

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The first argument's block at grid point `t`, as a [1024, 1024] array of extended reals. -/
abbrev block1 (c : Dev nD) (t : Fin cfg0.N) : FVec Ideal S1024x1024 .f32 := iblk m c 0 t
/-- The second argument's block at grid point `t`. -/
abbrev block2 (c : Dev nD) (t : Fin cfg0.N) : FVec Ideal S1024x1024 .f32 := iblk m c 1 t
/-- The two arguments, as [8192, 1024] arrays of extended reals. -/
abbrev arg1 (c : Dev nD) : FVec Ideal S8192x1024 .f32 := m ((c : Thread nD τ).loc main_arg0)
abbrev arg2 (c : Dev nD) : FVec Ideal S8192x1024 .f32 := m ((c : Thread nD τ).loc main_arg1)

/-- Column `d` of the first argument's block at grid point `t`, summed (zero past the grid). -/
def blockCol1 (c : Dev nD) (d : Fin 1024) (t : ℕ) : EReal :=
  if h : t < cfg0.N then ∑ r : Fin 1024, block1 m c ⟨t, h⟩ (ix2 r d) else 0

/-- Column `d` of the second argument's block at grid point `t`, summed (zero past the grid). -/
def blockCol2 (c : Dev nD) (d : Fin 1024) (t : ℕ) : EReal :=
  if h : t < cfg0.N then ∑ r : Fin 1024, block2 m c ⟨t, h⟩ (ix2 r d) else 0

theorem blockCol1_of_lt (c : Dev nD) (d : Fin 1024) (t : ℕ) (h : t < cfg0.N) :
    blockCol1 m c d t = ∑ r : Fin 1024, block1 m c ⟨t, h⟩ (ix2 r d) := dif_pos h

theorem blockCol2_of_lt (c : Dev nD) (d : Fin 1024) (t : ℕ) (h : t < cfg0.N) :
    blockCol2 m c d t = ∑ r : Fin 1024, block2 m c ⟨t, h⟩ (ix2 r d) := dif_pos h

/-- One accumulation into row 1 at column `d`: a row holding `s` there ends at `s` plus the block's column sum. -/
theorem step_row1 (row : FVec Ideal S1x1024 .f32) (blk : FVec Ideal S1024x1024 .f32) (d : Fin 1024) (s : EReal)
    (h : row (ix2 (0 : Fin 1) d) = s) :
    k0_pay3 (F := Ideal) row blk (ix2 (0 : Fin 1) d) = s + ∑ r : Fin 1024, blk (ix2 r d) := by
  rw [pay3_apply, h]

/-- One accumulation into row 2 at column `d`. -/
theorem step_row2 (row : FVec Ideal S1x1024 .f32) (blk : FVec Ideal S1024x1024 .f32) (d : Fin 1024) (s : EReal)
    (h : row (ix2 (0 : Fin 1) d) = s) :
    k0_pay4 (F := Ideal) row blk (ix2 (0 : Fin 1) d) = s + ∑ r : Fin 1024, blk (ix2 r d) := by
  rw [pay4_apply, h]

/-- THE INVARIANT: after grid point `n` each output row holds, at column `d`, the sum over the points up to `n` of
    column `d` of that point's block of its argument. -/
theorem rows_after (c : Dev nD) : ∀ (n : ℕ) (hn : n < cfg0.N) (d : Fin 1024),
    (outsAt0 m c n hn).1 (ix2 (0 : Fin 1) d) = ∑ t ∈ Finset.range (n + 1), blockCol1 m c d t
      ∧ (outsAt0 m c n hn).2 (ix2 (0 : Fin 1) d) = ∑ t ∈ Finset.range (n + 1), blockCol2 m c d t
  | 0, hn, d => by
    rw [outsAt0_A m c ⟨0, hn⟩ rfl, Finset.sum_range_one, Finset.sum_range_one, blockCol1_of_lt m c d 0 hn,
      blockCol2_of_lt m c d 0 hn]
    dsimp only
    rw [first_row1, first_row2]
    exact ⟨(step_row1 _ _ d 0 (pay1_apply _)).trans (zero_add _), (step_row2 _ _ d 0 (pay2_apply _)).trans (zero_add _)⟩
  | n + 1, hn, d => by
    have hN : cfg0.N = 8 := N_0
    have hB : ¬(⟨n + 1, hn⟩ : Fin cfg0.N).val % 8 = 0 := by dsimp only; omega
    obtain ⟨ih1, ih2⟩ := rows_after c n (Nat.lt_of_succ_lt hn) d
    rw [outsAt0_B m c ⟨n + 1, hn⟩ hB, Finset.sum_range_succ _ (n + 1), Finset.sum_range_succ _ (n + 1),
      blockCol1_of_lt m c d (n + 1) hn, blockCol2_of_lt m c d (n + 1) hn]
    dsimp only
    rw [later_row1, later_row2]
    exact ⟨step_row1 _ _ d _ ih1, step_row2 _ _ d _ ih2⟩

/-- Where each input window's block sits at point `t`: block row `t`, block column 0 — decided over the grid. -/
theorem block_index : ∀ t : Fin cfg0.N, (win0_0.index t 0 = t.val ∧ win0_0.index t 1 = 0)
      ∧ (win0_1.index t 0 = t.val ∧ win0_1.index t 1 = 0) :=
  (by decide +kernel : ∀ t : Fin grid0.N, (win0_0.index t 0 = t.val ∧ win0_0.index t 1 = 0)
      ∧ (win0_1.index t 0 = t.val ∧ win0_1.index t 1 = 0))

/-- Entry `(r, d)` of the first argument's block at point `t` is entry `(1024 t + r, d)` of the argument. -/
theorem block1_apply (c : Dev nD) (t : Fin cfg0.N) (r d : Fin 1024) (hb : 1024 * t.val + r.val < 8192) :
    block1 m c t (ix2 r d)
      = arg1 m c (ix2 ⟨1024 * t.val + r.val, hb⟩ d) := by
  have hi := (block_index t).1
  show iblk m c 0 t (ix2 r d) = m (c.tc.loc main_arg0) _
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [hi.1]; omega
  | ⟨1, _⟩ => show win0_0.index t 1 * 1024 + 1 * d.val = d.val; rw [hi.2]; omega

/-- Entry `(r, d)` of the second argument's block at point `t` is entry `(1024 t + r, d)` of the argument. -/
theorem block2_apply (c : Dev nD) (t : Fin cfg0.N) (r d : Fin 1024) (hb : 1024 * t.val + r.val < 8192) :
    block2 m c t (ix2 r d)
      = arg2 m c (ix2 ⟨1024 * t.val + r.val, hb⟩ d) := by
  have hi := (block_index t).2
  show iblk m c 1 t (ix2 r d) = m (c.tc.loc main_arg1) _
  unfold iblk
  rw [View.read_apply]
  show V m c main_arg1 _ = m (c.tc.loc main_arg1) _
  unfold V
  congr 1
  funext a
  apply Fin.ext
  match a with
  | ⟨0, _⟩ => show win0_1.index t 0 * 1024 + 1 * r.val = 1024 * t.val + r.val; rw [hi.1]; omega
  | ⟨1, _⟩ => show win0_1.index t 1 * 1024 + 1 * d.val = d.val; rw [hi.2]; omega

/-- The 8192 rows are the 8 blocks of 1024 rows: row `1024 t + r` once for each `(t, r)`. -/
theorem sum_rows (f : Fin 8192 → EReal) :
    ∑ p : Fin 8192, f p
      = ∑ t : Fin 8, ∑ r : Fin 1024, f ⟨1024 * t.val + r.val, by have := t.isLt; have := r.isLt; omega⟩ := by
  rw [← Fintype.sum_prod_type']
  refine (Fintype.sum_equiv (finProdFinEquiv (m := 8) (n := 1024)) _ _ fun x => ?_).symm
  exact congrArg f (Fin.ext (by show 1024 * x.1.val + x.2.val = x.2.val + 1024 * x.1.val; omega))

/-- The last grid point. -/
theorem last_lt : 7 < cfg0.N := by rw [show cfg0.N = 8 from N_0]; decide

/-- After the last point row 1 holds the column sums of the first argument … -/
theorem row1_final (c : Dev nD) (d : Fin 1024) :
    (outsAt0 m c 7 last_lt).1 (ix2 (0 : Fin 1) d)
      = ∑ p : Fin 8192, arg1 m c (ix2 p d) := by
  have hN : cfg0.N = 8 := N_0
  rw [(rows_after m c 7 last_lt d).1, sum_rows, Finset.sum_range]
  refine Finset.sum_congr rfl fun t _ => ?_
  have ht : t.val < cfg0.N := by have := t.isLt; omega
  rw [blockCol1_of_lt m c d t.val ht]
  exact Finset.sum_congr rfl fun r _ => block1_apply m c ⟨t.val, ht⟩ r d _

/-- … and row 2 the column sums of the second. -/
theorem row2_final (c : Dev nD) (d : Fin 1024) :
    (outsAt0 m c 7 last_lt).2 (ix2 (0 : Fin 1) d)
      = ∑ p : Fin 8192, arg2 m c (ix2 p d) := by
  have hN : cfg0.N = 8 := N_0
  rw [(rows_after m c 7 last_lt d).2, sum_rows, Finset.sum_range]
  refine Finset.sum_congr rfl fun t _ => ?_
  have ht : t.val < cfg0.N := by have := t.isLt; omega
  rw [blockCol2_of_lt m c d t.val ht]
  exact Finset.sum_congr rfl fun r _ => block2_apply m c ⟨t.val, ht⟩ r d _

end Cert.KernelIdeal.ColSum

end
-- ==== Proof.Final.lean ====
/-
  From the last grid point to the program's result.

  Each output array is one [1, 1024] row and each output window's only block is that whole row, written back once,
  after the last grid point. So each output array ends holding what the last point left in the window's buffer: the
  column sums of its argument. The host lines after the region multiply the two rows entry by entry, sum the products
  from the zero word, and divide by the word `0x4C800000`.
-/
import proofs.«152017_j48395691491826_1_alg».proof.Proof.Accum
import Idealize.ShloMosaic.Lib.StableHlo.Run

noncomputable section

namespace Cert.KernelIdeal.ColSum

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- What the last point leaves in output row 1, as contents of the first result array of the region. -/
abbrev sums1 (c : Dev nD) : Buf (Elt Ideal) ((c : Thread nD τ).loc main_v0_0) := (outsAt0 m c 7 last_lt).1
/-- What the last point leaves in output row 2, as contents of the second result array of the region. -/
abbrev sums2 (c : Dev nD) : Buf (Elt Ideal) ((c : Thread nD τ).loc main_v0_1) := (outsAt0 m c 7 last_lt).2

/-- Only the last point writes an output window back. -/
theorem flush_last (t : Fin cfg0.N) : ((cfg0.win 2).flush t = true → t = t0_7) ∧ ((cfg0.win 3).flush t = true → t = t0_7) := by
  have hN : cfg0.N = 8 := N_0
  exact ⟨fun hf => Fin.ext (by have := (flush0_2 t).mp hf; have := t.isLt; show t.val = 7; omega),
    fun hf => Fin.ext (by have := (flush0_3 t).mp hf; have := t.isLt; show t.val = 7; omega)⟩

/-- The write-back of window 2 writes row 1: its block at offsets zero of the [1, 1024] array is the array. -/
theorem flushed_row1 (c : Dev nD) (t : Fin cfg0.N) (hf : (cfg0.win 2).flush t = true) :
    (dats m 0 c).flushed 2 t = ((cfg0.win 2).blk t).view.read (Elt Ideal) (sums1 m c) := by
  obtain rfl : t = t0_7 := (flush_last t).1 hf
  show (cfg0.win 2).cut (grid0.coords t0_7) ((dats m 0 c).after 2 t0_7) = _
  rw [after0_2]
  have hz : (fun a => win0_2.index t0_7 a * main_v0_0.ty.shape.size a) = fun _ => 0 := funext fun a => by fin_cases a <;> decide
  exact (Memref.read_access_unit_zero (Elt Ideal) main_v0_0 hz (fun a => by rw [congrFun hz a]; simp) (sums1 m c)).symm

/-- The write-back of window 3 writes row 2. -/
theorem flushed_row2 (c : Dev nD) (t : Fin cfg0.N) (hf : (cfg0.win 3).flush t = true) :
    (dats m 0 c).flushed 3 t = ((cfg0.win 3).blk t).view.read (Elt Ideal) (sums2 m c) := by
  obtain rfl : t = t0_7 := (flush_last t).2 hf
  show (cfg0.win 3).cut (grid0.coords t0_7) ((dats m 0 c).after 3 t0_7) = _
  rw [after0_3]
  have hz : (fun a => win0_3.index t0_7 a * main_v0_1.ty.shape.size a) = fun _ => 0 := funext fun a => by fin_cases a <;> decide
  exact (Memref.read_access_unit_zero (Elt Ideal) main_v0_1 hz (fun a => by rw [congrFun hz a]; simp) (sums2 m c)).symm

/-- The first result array of the region ends holding row 1: the last point's block covers it. -/
theorem final_row1 (c : Dev nD) : (dats m 0 c).arrAt 2 cfg0.N = sums1 m c :=
  (dats m 0 c).arrAt_eq_of_cover 2 (sums1 m c) (flushed_row1 m c) fun i =>
    ⟨t0_7, (flush0_2 t0_7).mpr rfl, by
      show i ∈ ((View.whole main_v0_0).slice (win0_2.rect t0_7)).set
      rw [View.set_slice_whole, Rect.mem_set_unit]
      intro a
      have h0 : (i 0 : Nat) < 1 := (i 0).isLt
      have h1 : (i 1 : Nat) < 1024 := (i 1).isLt
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 0 from by decide +kernel, show win0_2.xsize (grid0.coords t0_7) 0 = 1 from by decide +kernel]; omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 1024 from by decide +kernel]; omega⟩

/-- The second result array of the region ends holding row 2. -/
theorem final_row2 (c : Dev nD) : (dats m 0 c).arrAt 3 cfg0.N = sums2 m c :=
  (dats m 0 c).arrAt_eq_of_cover 3 (sums2 m c) (flushed_row2 m c) fun i =>
    ⟨t0_7, (flush0_3 t0_7).mpr rfl, by
      show i ∈ ((View.whole main_v0_1).slice (win0_3.rect t0_7)).set
      rw [View.set_slice_whole, Rect.mem_set_unit]
      intro a
      have h0 : (i 0 : Nat) < 1 := (i 0).isLt
      have h1 : (i 1 : Nat) < 1024 := (i 1).isLt
      match a with
      | ⟨0, _⟩ =>
        show win0_3.index t0_7 0 * win0_3.size 0 ≤ (i 0 : Nat) ∧ (i 0 : Nat) < win0_3.index t0_7 0 * win0_3.size 0 + win0_3.xsize (grid0.coords t0_7) 0
        rw [show win0_3.index t0_7 0 * win0_3.size 0 = 0 from by decide +kernel, show win0_3.xsize (grid0.coords t0_7) 0 = 1 from by decide +kernel]; omega
      | ⟨1, _⟩ =>
        show win0_3.index t0_7 1 * win0_3.size 1 ≤ (i 1 : Nat) ∧ (i 1 : Nat) < win0_3.index t0_7 1 * win0_3.size 1 + win0_3.xsize (grid0.coords t0_7) 1
        rw [show win0_3.index t0_7 1 * win0_3.size 1 = 0 from by decide +kernel, show win0_3.xsize (grid0.coords t0_7) 1 = 1024 from by decide +kernel]; omega⟩

/-- The host lines after the region, as one function of the two rows: the entrywise product, summed from the zero
    word, divided by the word `0x4C800000`. -/
def meanDot (s1 s2 : FVec Ideal S1x1024 .f32) : FVec Ideal S_ .f32 :=
  Host.divf (F := Ideal) (Host.reduceAdd (F := Ideal) (mulf s1 s2) (constant (F := Ideal) S_ .f32 0x00000000#32) reducesTo_S1x1024_S_d0_1 h_S_)
    (constant (F := Ideal) S_ .f32 0x4C800000#32)

/-- What the lines after the region leave in the program's result: that function of the two rows. -/
theorem tail_eq (c : Dev nD) :
    Pipeline.afterTail₀ cfgs (dats m) 0 (V0 m) [hostOps1] c main_v3 = meanDot (sums1 m c) (sums2 m c) := by
  unfold Pipeline.afterTail₀
  show StableHlo.after hostOps1 _ (Proc.devRef .tc main_v3) = _
  after_results
  have e1 : Pipeline.withArrays (cfgs 0).spec c (V0 m c) (fun w => (dats m 0 c).arrAt w (cfgs 0).N) (Proc.devRef .tc main_v0_0)
      = sums1 m c := (Pipeline.withArrays_arr spec0 launch0.win.arr_inj c _ _ 2).trans (final_row1 m c)
  have e2 : Pipeline.withArrays (cfgs 0).spec c (V0 m c) (fun w => (dats m 0 c).arrAt w (cfgs 0).N) (Proc.devRef .tc main_v0_1)
      = sums2 m c := (Pipeline.withArrays_arr spec0 launch0.win.arr_inj c _ _ 3).trans (final_row2 m c)
  rw [e1, e2]
  rfl

/-- The program's result buffer is not scoped and is no window's array: the region passes it by. -/
theorem result_bypasses : main_v3 ∈ Pipeline.restRefs sig (cfgs 0).spec :=
  Pipeline.mem_restRefs_of main_v3 rfl (by decide)

/-- THE RUN, READ: every weakly fair execution terminates with the result at `meanDot` of the two rows the last grid
    point left, and the two arguments as they were. -/
theorem run : θ_run defs (onTc (τ := τ) (main (F := Ideal))) ⟨m, fun _ => 0, ρ⟩ fun r => ∀ c : Dev nD,
      r.2.mem ((c : Thread nD τ).loc main_v3) = meanDot (sums1 m c) (sums2 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v3 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ColSum

end
-- ==== Proof.RefValue.lean ====
/-
  The reference at an index, on the extended reals.

  The reference forms the [8192, 8192] product `x1 · x2ᵀ` (entry `(n, m)` is `∑ k, x1 (n, k) · x2 (m, k)`), sums
  all of its entries from the zero word, and divides by the word `0x4C800000`. Read at its one index the result is

      (0w + ∑ n, ∑ m, ∑ k, x1 (n, k) · x2 (m, k)) / cw.

  The words `0w` and `cw` are kept as words: the kernel's program ends with the same two, so they are never evaluated.
-/
import proofs.«152017_j48395691491826_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- Entry `(n, m)` of the product reads the left operand along row `n` … -/
theorem lidx_eq (n m : Fin 8192) (k : Fin 1024) : lidx_main_v0 (ix2 n m) k = ix2 n k :=
  funext fun a => Fin.ext (by match a with | ⟨0, _⟩ => rfl | ⟨1, _⟩ => rfl)

/-- … and the right operand along row `m`. -/
theorem ridx_eq (n m : Fin 8192) (k : Fin 1024) : ridx_main_v0 (ix2 n m) k = ix2 m k :=
  funext fun a => Fin.ext (by match a with | ⟨0, _⟩ => rfl | ⟨1, _⟩ => rfl)

/-- The reference's result at its one index. -/
theorem ref_apply (x0 x1 : FVec Ideal S8192x1024 .f32) (i : S_.Idx) :
    val_main_v2 (F := Ideal) x0 x1 i
      = FloatOps.hostDivf (F := Ideal) (Ideal.ofBits .f32 0x00000000#32
          + ∑ n : Fin 8192, ∑ m : Fin 8192, ∑ k : Fin 1024, x0 (ix2 n k) * x1 (ix2 m k))
        (Ideal.ofBits .f32 0x4C800000#32) := by
  rw [val_main_v2_apply, val_main_v1_apply, val_main_cst_apply, val_main_cst_0_apply, sum_idx2]
  simp only [val_main_v0_apply, lidx_eq, ridx_eq]
  rfl

end Cert.ReferenceIdeal.RefValue

end
-- ==== Proof.SumLaw.lean ====
/-
  The law that joins the two programs. For real matrices `a : N × D` and `b : M × D`,

      ∑ d, (∑ n, a n d) · (∑ m, b m d)  =  ∑ n, ∑ m, ∑ d, a n d · b m d :

  the inner product of the two column-sum vectors is the sum of every entry of `a · bᵀ`. It is distributivity of the
  product over the two finite sums followed by two exchanges of the order of summation. It is stated on the extended
  reals for entries that are real numbers: there both sides are the image of the real identity, since the inclusion of
  the reals is additive and multiplicative. (With an infinite entry distributivity fails, so the law is not stated
  for arbitrary extended reals.)
-/
import Idealize.ShloMosaic.PureOps.Ideal.Laws

namespace Cert.SumLaw

/-- The inclusion of the reals in the extended reals carries a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the inner product of the column sums is the total of all pairwise row inner products. -/
theorem real_law {N M D : Type*} [Fintype N] [Fintype M] [Fintype D] (a : N → D → ℝ) (b : M → D → ℝ) :
    ∑ d, (∑ n, a n d) * (∑ m, b m d) = ∑ n, ∑ m, ∑ d, a n d * b m d :=
  calc ∑ d, (∑ n, a n d) * (∑ m, b m d)
      = ∑ d, ∑ n, ∑ m, a n d * b m d := by simp only [Finset.sum_mul_sum]
    _ = ∑ n, ∑ d, ∑ m, a n d * b m d := Finset.sum_comm
    _ = ∑ n, ∑ m, ∑ d, a n d * b m d := Finset.sum_congr rfl fun _ _ => Finset.sum_comm

/-- The same on the extended reals, for real entries. -/
theorem ereal_law {N M D : Type*} [Fintype N] [Fintype M] [Fintype D] (a : N → D → ℝ) (b : M → D → ℝ) :
    ∑ d, (∑ n, (a n d : EReal)) * (∑ m, (b m d : EReal)) = ∑ n, ∑ m, ∑ d, (a n d : EReal) * (b m d : EReal) := by
  simp only [← coe_sum, ← EReal.coe_mul]
  exact congrArg _ (real_law a b)

end Cert.SumLaw
-- ==== Proof.Bridge.lean ====
/-
  The two results are one extended real.

  The kernel's program ends at `(0w + ∑ d, s1 d · s2 d) / cw` where `s1`, `s2` are the column sums of the two
  arguments; the reference ends at `(0w + ∑ n, ∑ m, ∑ k, x1 (n, k) · x2 (m, k)) / cw`, with the same two words. So it
  is enough that the two sums agree, and for arguments whose entries are real numbers they do: the inner product of
  the column sums is the total of all the rows' pairwise inner products (distributivity over both sums, then two
  exchanges of summation order). This is the one place where the finiteness of the inputs is used.
-/
import proofs.«152017_j48395691491826_1_alg».proof.Proof.Final
import proofs.«152017_j48395691491826_1_alg».proof.Proof.RefValue
import proofs.«152017_j48395691491826_1_alg».proof.Proof.SumLaw

noncomputable section

namespace Cert.Bridge

open Idealize.ShloMosaic Idealize.ShloMosaic.ValueIdx
open Cert.KernelIdeal.ColSum (meanDot)

/-- The kernel program's last lines read at the result's one index: the two rows' inner product, summed from the zero
    word, over the word `0x4C800000`. -/
theorem meanDot_apply (s1 s2 : FVec Ideal Cert.KernelIdeal.S1x1024 .f32) (i : Cert.KernelIdeal.S_.Idx) :
    meanDot s1 s2 i
      = FloatOps.hostDivf (F := Ideal) (Ideal.ofBits .f32 0x00000000#32
          + ∑ d : Fin 1024, s1 (ix2 (0 : Fin 1) d) * s2 (ix2 (0 : Fin 1) d))
        (Ideal.ofBits .f32 0x4C800000#32) := by
  have h : ∀ (y : FVec Ideal Cert.KernelIdeal.S1x1024 .f32) (hr : Cert.KernelIdeal.S1x1024.ReducesTo [0, 1] Cert.KernelIdeal.S_)
      (hu : 0 < Cert.KernelIdeal.S_.numel),
      Host.reduceAdd (F := Ideal) y (constant (F := Ideal) Cert.KernelIdeal.S_ .f32 0x00000000#32) hr hu i
        = Ideal.ofBits .f32 0x00000000#32 + ∑ j : Cert.KernelIdeal.S1x1024.Idx, y j := by
    intro y hr hu
    simp only [Host.reduceAdd, Ideal.hostReduceAdd_def]
    exact Ideal.hostReduceAdd_total hr (fun b => b.elim0) y _ i
  unfold meanDot
  show FloatOps.hostDivf (F := Ideal) (Host.reduceAdd (F := Ideal) (mulf s1 s2) _ _ _ i) _ = _
  rw [h, sum_idx2, Fin.sum_univ_one]
  rfl

/-- For arguments with real entries, rows `s1`, `s2` that hold the arguments' column sums give the reference's result. -/
theorem ref_eq_kernel (x1 x2 : FVec Ideal Cert.ReferenceIdeal.S8192x1024 .f32)
    (hx1 : ∀ i, ∃ r : ℝ, x1 i = (r : EReal)) (hx2 : ∀ i, ∃ r : ℝ, x2 i = (r : EReal))
    (s1 s2 : FVec Ideal Cert.KernelIdeal.S1x1024 .f32)
    (h1 : ∀ d : Fin 1024, s1 (ix2 (0 : Fin 1) d) = ∑ p : Fin 8192, x1 (ix2 p d))
    (h2 : ∀ d : Fin 1024, s2 (ix2 (0 : Fin 1) d) = ∑ p : Fin 8192, x2 (ix2 p d)) :
    Cert.ReferenceIdeal.Read.val_main_v2 (F := Ideal) x1 x2 = meanDot s1 s2 := by
  funext i
  rw [Cert.ReferenceIdeal.RefValue.ref_apply, meanDot_apply]
  refine congrArg (fun S => FloatOps.hostDivf (F := Ideal) (Ideal.ofBits .f32 0x00000000#32 + S) (Ideal.ofBits .f32 0x4C800000#32)) ?_
  choose a ha using hx1
  choose b hb using hx2
  simp only [h1, h2, ha, hb]
  exact (Cert.SumLaw.ereal_law (fun n d => a (ix2 n d)) (fun m d => b (ix2 m d))).symm

end Cert.Bridge

end
-- ==== Proof.lean ====
/-
  The certificate of the column-sum kernel against the full-product reference.

  The reference computes the mean of every entry of `x1 · x2ᵀ` (an [8192, 8192] product of two [8192, 1024] arrays):
  `(∑ n, ∑ m, ∑ k, x1 (n, k) · x2 (m, k)) / 8192²`. The kernel never forms the product: a grid of 8 points sums the
  columns of both arguments, 1024 rows at a time, into two [1, 1024] rows; the host lines after it take the inner
  product of the two rows and divide by the same constant. On the extended reals the two results are equal whenever
  every input entry is a real number — the inner product of the column sums is the total of all pairwise row inner
  products, by distributivity over finite sums — and that is what the precondition gives.

  Frames: the two kernel programs' frames are the generated ones; the reference's frame is its generated run with the
  result forgotten. The ideal pass rewrote nothing, so the idealization claim is `True`. The value claim: the kernel
  program's run ends with its result at `meanDot` of the two accumulated rows (Pieces, Accum, Final), the reference's
  run at its composed term (the generated run), and the two agree (Bridge, from SumLaw and Finite).
-/
import proofs.«152017_j48395691491826_1_alg».proof.Defs
import proofs.«152017_j48395691491826_1_alg».proof.Proof.Gen.Kernel
import proofs.«152017_j48395691491826_1_alg».proof.Proof.Gen.Kernel.Skeleton
import proofs.«152017_j48395691491826_1_alg».proof.Proof.Gen.Kernel.Launch
import proofs.«152017_j48395691491826_1_alg».proof.Proof.Gen.Kernel.Points
import proofs.«152017_j48395691491826_1_alg».proof.Proof.Gen.Kernel.Frame
import proofs.«152017_j48395691491826_1_alg».proof.Proof.Gen.KernelIdeal
import proofs.«152017_j48395691491826_1_alg».proof.Proof.Gen.KernelIdeal.Skeleton
import proofs.«152017_j48395691491826_1_alg».proof.Proof.Gen.KernelIdeal.Launch
import proofs.«152017_j48395691491826_1_alg».proof.Proof.Gen.KernelIdeal.Points
import proofs.«152017_j48395691491826_1_alg».proof.Proof.Gen.KernelIdeal.Frame
import proofs.«152017_j48395691491826_1_alg».proof.Proof.Gen.ReferenceIdeal
import proofs.«152017_j48395691491826_1_alg».proof.Proof.Gen.Pre_finite_inputs
import proofs.«152017_j48395691491826_1_alg».proof.Proof.Gen.ReferenceIdeal.Run
import proofs.«152017_j48395691491826_1_alg».proof.Proof.Gen.ReferenceIdeal.Read
import proofs.«152017_j48395691491826_1_alg».proof.Proof.Finite
import proofs.«152017_j48395691491826_1_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals, from memories that agree on the two arguments and hold only real numbers there, both programs
    run, and both results are the inner product of the arguments' column sums, summed from the zero word, over `8192²`. -/
theorem algebraic : Cert.algebraic_KernelIdeal_ReferenceIdeal := by
  intro m ρ m' ρ' hpre hagree
  refine ⟨fun c => Cert.KernelIdeal.ColSum.meanDot (Cert.KernelIdeal.ColSum.sums1 m c) (Cert.KernelIdeal.ColSum.sums2 m c),
    Cert.KernelIdeal.ColSum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, (hagree c).1, (hagree c).2]
  obtain ⟨hx1, hx2⟩ := Cert.FiniteInputs.real_of_pre _ _ (hpre c)
  exact Cert.Bridge.ref_eq_kernel _ _ hx1 hx2 _ _ (Cert.KernelIdeal.ColSum.row1_final m c) (Cert.KernelIdeal.ColSum.row2_final m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
